-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1600000 : Shape := ⟨2, ![2, 1600000]⟩
abbrev S1600000 : Shape := ⟨1, ![1600000]⟩
abbrev S100000x128 : Shape := ⟨2, ![100000, 128]⟩
abbrev S128x128 : Shape := ⟨2, ![128, 128]⟩
abbrev S128 : Shape := ⟨1, ![128]⟩
abbrev S_ : Shape := ⟨0, ![]⟩

class Facts : Prop where
  bcast_S_S1600000 : S_.BroadcastsInDim S1600000 (![] : Fin 0 → Fin S1600000.rank)
  reducesTo_S1600000_S_d0 : S1600000.ReducesTo [0] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_arg9 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : IVec S2x1600000 32) (main_arg1 : FVec F S1600000 .f32) (main_arg2 : FVec F S100000x128 .f32) (main_arg3 : FVec F S100000x128 .f32) (main_arg4 : FVec F S128x128 .f32) (main_arg5 : FVec F S128 .f32) (main_arg6 : FVec F S128x128 .f32) (main_arg7 : FVec F S128 .f32) (main_arg8 : FVec F S128 .f32) (main_arg9 : FVec F S128 .f32) : IVec S_ 1 :=
  let main_v0 : FVec F S1600000 .f32 := Host.absf main_arg1
  let main_cst : FVec F S_ .f32 := constant S_ .f32 0x7F800000#32
  let main_v1 : FVec F S1600000 .f32 := broadcastInDim S1600000 ![] bcast_S_S1600000 main_cst
  let main_v2 : IVec S1600000 1 := cmpf .olt main_v0 main_v1
  let main_c : IVec S_ 1 := constantI S_ 1 1#1
  let main_v3 : IVec S_ 1 := (fun x v => Host.reduce IntOp.andi x v reducesTo_S1600000_S_d0 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x128 .f32 := Host.absf main_arg3
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S2x1600000 : Shape := ⟨2, ![2, 1600000]⟩
abbrev S1600000 : Shape := ⟨1, ![1600000]⟩
abbrev S100000x128 : Shape := ⟨2, ![100000, 128]⟩
abbrev S128x128 : Shape := ⟨2, ![128, 128]⟩
abbrev S128 : Shape := ⟨1, ![128]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S4000x128 : Shape := ⟨2, ![4000, 128]⟩
abbrev S4000 : Shape := ⟨1, ![4000]⟩
abbrev S4000x1 : Shape := ⟨2, ![4000, 1]⟩

abbrev nBuf : Space → Nat
  | .hbm => 37
  | .vmem => 14
  | .smem => 0
  | _ => 0

abbrev bufTy : (tb : Table) → Fin (tcTables nBuf tb) → BufTy
  | .hbm, ⟨0, _⟩ => ⟨S2x1600000, .i32⟩
  | .hbm, ⟨1, _⟩ => ⟨S1600000, .f32⟩
  | .hbm, ⟨2, _⟩ => ⟨S100000x128, .f32⟩
  | .hbm, ⟨3, _⟩ => ⟨S100000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S1600000x1, .f32⟩
  | .hbm, ⟨24, _⟩ => ⟨S1600000x128, .f32⟩
  | .hbm, ⟨25, _⟩ => ⟨S1600000x128, .f32⟩
  | .hbm, ⟨26, _⟩ => ⟨S_, .f32⟩
  | .hbm, ⟨27, _⟩ => ⟨S100000x128, .f32⟩
  | .hbm, ⟨28, _⟩ => ⟨S1600000x1, .i32⟩
  | .hbm, ⟨29, _⟩ => ⟨S100000x128, .f32⟩
  | .hbm, ⟨30, _⟩ => ⟨S128x128, .f32⟩
  | .hbm, ⟨31, _⟩ => ⟨S128x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S4000x128, .f32⟩
  | .local _ .vmem, ⟨13, _⟩ => ⟨S4000x128, .f32⟩
  | _, _ => ⟨S2x1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S4000 : S4000x128.Reduces [1] S4000
  shapeCasts_S4000_S4000x1 : S4000.ShapeCasts S4000x1
  broadcasts_S4000x1_S4000x128 : S4000x1.Broadcasts S4000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S100000x128.size a
  hwx0_9 : ∀ i : grid0.Coords, EltTy.bits .f32 = 32 ∨ (Rect.block (s := S100000x128) S4000x128.size (cc0_transform_9 i) (hinb0_9 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v16) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23) S4000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2x1600000 : Shape := ⟨2, ![2, 1600000]⟩
abbrev S1600000 : Shape := ⟨1, ![1600000]⟩
abbrev S100000x128 : Shape := ⟨2, ![100000, 128]⟩
abbrev S128x128 : Shape := ⟨2, ![128, 128]⟩
abbrev S128 : Shape := ⟨1, ![128]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000 : Shape := ⟨1, ![100000]⟩
abbrev S100000x1 : Shape := ⟨2, ![100000, 1]⟩

abbrev nBuf : Space → Nat
  | .hbm => 87
  | .vmem => 0
  | .smem => 0
  | _ => 0

abbrev bufTy : (tb : Table) → Fin (tcTables nBuf tb) → BufTy
  | .hbm, ⟨0, _⟩ => ⟨S2x1600000, .i32⟩
  | .hbm, ⟨1, _⟩ => ⟨S1600000, .f32⟩
  | .hbm, ⟨2, _⟩ => ⟨S100000x128, .f32⟩
  | .hbm, ⟨3, _⟩ => ⟨S100000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S1600000x1, .f32⟩
  | .hbm, ⟨24, _⟩ => ⟨S1600000x128, .f32⟩
  | .hbm, ⟨25, _⟩ => ⟨S1600000x128, .f32⟩
  | .hbm, ⟨26, _⟩ => ⟨S_, .f32⟩
  | .hbm, ⟨27, _⟩ => ⟨S100000x128, .f32⟩
  | .hbm, ⟨28, _⟩ => ⟨S1600000x1, .i32⟩
  | .hbm, ⟨29, _⟩ => ⟨S100000x128, .f32⟩
  | .hbm, ⟨30, _⟩ => ⟨S_, .f32⟩
  | .hbm, ⟨31, _⟩ => ⟨S100000x128, .f32⟩
  | .hbm, ⟨32, _⟩ => ⟨S100000x128, .f32⟩
  | .hbm, ⟨33, _⟩ => ⟨S_, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S100000, .f32⟩
  | .hbm, ⟨51, _⟩ => ⟨S100000x1, .f32⟩
  | .hbm, ⟨52, _⟩ => ⟨S_, .f32⟩
  | .hbm, ⟨53, _⟩ => ⟨S100000x1, .f32⟩
  | .hbm, ⟨54, _⟩ => ⟨S100000x1, .f32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S_, .f32⟩
  | .hbm, ⟨59, _⟩ => ⟨S100000, .f32⟩
  | .hbm, ⟨60, _⟩ => ⟨S100000x1, .f32⟩
  | .hbm, ⟨61, _⟩ => ⟨S_, .f32⟩
  | .hbm, ⟨62, _⟩ => ⟨S100000x1, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x1, .f32⟩
  | .hbm, ⟨71, _⟩ => ⟨S100000x1, .f32⟩
  | .hbm, ⟨72, _⟩ => ⟨S100000x1, .f32⟩
  | .hbm, ⟨73, _⟩ => ⟨S100000x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S100000x128, .f32⟩
  | .hbm, ⟨80, _⟩ => ⟨S100000x128, .f32⟩
  | .hbm, ⟨81, _⟩ => ⟨S128x128, .f32⟩
  | .hbm, ⟨82, _⟩ => ⟨S100000x128, .f32⟩
  | .hbm, ⟨83, _⟩ => ⟨S1x128, .f32⟩
  | .hbm, ⟨84, _⟩ => ⟨S100000x128, .f32⟩
  | .hbm, ⟨85, _⟩ => ⟨S100000x128, .f32⟩
  | .hbm, ⟨86, _⟩ => ⟨S100000x128, .f32⟩
  | _, _ => ⟨S2x1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_call0_cst : Ref sig .tc := ⟨.hbm, 78, rfl⟩
abbrev main_call0_v0 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.RowSpec.lean ====
/-
  One row of the graph layer, as a function of rows.

  The layer maps a node's aggregated neighbour row `h`, its initial-feature row `a` and its input row `x`
  (each of 128 entries) to an output row of 128 entries:
    • the convex blend `c = 0.9·h + 0.1·a` (the two weights are the single-precision values nearest 0.9 and 0.1);
    • a linear map of the blend, `c·Wl + bl`, averaged with the blend itself: `o = ½·(c·Wl + bl) + ½·c`;
    • layer normalisation of `o` over its 128 entries: with `μ` the mean and `σ²` the mean of the squared
      deviations, `g·(o − μ)·(σ² + ε)^(−1/2) + b`;
    • the positive part of that, plus the residual projection `x·Wr + br` of the input row.
  Nothing else of the layer mixes rows: every output row is this function of the same row of the three
  row-indexed arrays and of the shared weights. Both matrices are indexed `[contracted, output]`.
  All arithmetic is on the extended reals; `Ideal.div` and `Ideal.rsqrt` are the total quotient and
  reciprocal square root there.
-/
import Idealize.ShloMosaic.PureOps.Ideal

noncomputable section

namespace Cert.GraphLayer

open Idealize.ShloMosaic

/-- The weight of the aggregated row in the blend: the single-precision value nearest 0.9. -/
abbrev keep : EReal := Ideal.ofBits .f32 0x3F666666#32
/-- The weight of the initial row in the blend: the single-precision value nearest 0.1. -/
abbrev fresh : EReal := Ideal.ofBits .f32 0x3DCCCCCD#32
/-- One half. -/
abbrev half : EReal := Ideal.ofBits .f32 0x3F000000#32
/-- The row length, 128, as a value. -/
abbrev width : EReal := Ideal.ofBits .f32 0x43000000#32
/-- The variance floor of the normalisation: the single-precision value nearest 1e-5. -/
abbrev eps : EReal := Ideal.ofBits .f32 0x3727C5AC#32
/-- The zero the positive part is taken against. -/
abbrev zero : EReal := Ideal.ofBits .f32 0x00000000#32

/-- The convex blend of the aggregated row with the initial row. -/
def blend (h a : Fin 128 → EReal) (k : Fin 128) : EReal := keep * h k + fresh * a k

/-- A row times a matrix indexed `[contracted, output]`, plus a bias. -/
def affine (v : Fin 128 → EReal) (w : Fin 128 → Fin 128 → EReal) (b : Fin 128 → EReal) (q : Fin 128) : EReal :=
  (∑ k : Fin 128, v k * w k q) + b q

/-- The linear map of the blend averaged with the blend. -/
def mixed (h a : Fin 128 → EReal) (wl : Fin 128 → Fin 128 → EReal) (bl : Fin 128 → EReal) (q : Fin 128) : EReal :=
  half * affine (blend h a) wl bl q + half * blend h a q

/-- The mean of a row. -/
def rowMean (v : Fin 128 → EReal) : EReal := Ideal.div (∑ q : Fin 128, v q) width

/-- A row minus its mean. -/
def centered (v : Fin 128 → EReal) (q : Fin 128) : EReal := v q - rowMean v

/-- The mean of a row's squared deviations from its mean. -/
def rowVar (v : Fin 128 → EReal) : EReal := Ideal.div (∑ q : Fin 128, centered v q * centered v q) width

/-- Layer normalisation of a row with gain `g` and offset `b`. -/
def normalized (v g b : Fin 128 → EReal) (q : Fin 128) : EReal :=
  g q * centered v q * Ideal.rsqrt (rowVar v + eps) + b q

/-- One output row of the layer. -/
def layerRow (h a x : Fin 128 → EReal) (wl : Fin 128 → Fin 128 → EReal) (bl : Fin 128 → EReal)
    (wr : Fin 128 → Fin 128 → EReal) (br g b : Fin 128 → EReal) (q : Fin 128) : EReal :=
  max (normalized (mixed h a wl bl) g b q) zero + affine x wr br q

end Cert.GraphLayer

end
-- ==== Proof.ArraySpec.lean ====
/-
  The whole layer as one function of arrays, and the congruence of a row.

  The layer's output array of 100000 rows is the row function applied row by row: entry `(r, q)` is
  `layerRow` of row `r` of the aggregated array, of the initial features and of the input features, with the two
  weight matrices given already transposed (entry `(k, q)` multiplies the row's entry `k` into output `q`) and the
  two biases, the gain and the offset given as single rows `[1, 128]`.
-/
import proofs.«148300_j53060025975244_1_alg».proof.Proof.RowSpec
import Idealize.ShloMosaic.Lib.ValueIdx

noncomputable section

namespace Cert.GraphLayer

open Idealize.ShloMosaic Idealize.ShloMosaic.ValueIdx

/-- A row of the layer depends on its nine operands only through their entries. -/
theorem layerRow_congr {h h' a a' x x' : Fin 128 → EReal} {wl wl' : Fin 128 → Fin 128 → EReal} {bl bl' : Fin 128 → EReal}
    {wr wr' : Fin 128 → Fin 128 → EReal} {br br' g g' b b' : Fin 128 → EReal} {q q' : Fin 128}
    (eh : ∀ k, h k = h' k) (ea : ∀ k, a k = a' k) (ex : ∀ k, x k = x' k) (ewl : ∀ k j, wl k j = wl' k j)
    (ebl : ∀ j, bl j = bl' j) (ewr : ∀ k j, wr k j = wr' k j) (ebr : ∀ j, br j = br' j) (eg : ∀ j, g j = g' j)
    (eb : ∀ j, b j = b' j) (eq : q = q') :
    layerRow h a x wl bl wr br g b q = layerRow h' a' x' wl' bl' wr' br' g' b' q' := by
  obtain rfl : h = h' := funext eh
  obtain rfl : a = a' := funext ea
  obtain rfl : x = x' := funext ex
  obtain rfl : wl = wl' := funext fun k => funext (ewl k)
  obtain rfl : bl = bl' := funext ebl
  obtain rfl : wr = wr' := funext fun k => funext (ewr k)
  obtain rfl : br = br' := funext ebr
  obtain rfl : g = g' := funext eg
  obtain rfl : b = b' := funext eb
  subst eq
  rfl

/-- The layer's output array: `layerRow` row by row. The weights `wl`, `wr` are indexed `[contracted, output]`;
    `bl`, `br`, `g`, `b` are single rows. -/
def layerArray (hid ini xin : (⟨2, ![100000, 128]⟩ : Shape).Idx → EReal) (wl : (⟨2, ![128, 128]⟩ : Shape).Idx → EReal)
    (bl : (⟨2, ![1, 128]⟩ : Shape).Idx → EReal) (wr : (⟨2, ![128, 128]⟩ : Shape).Idx → EReal)
    (br g b : (⟨2, ![1, 128]⟩ : Shape).Idx → EReal) : (⟨2, ![100000, 128]⟩ : Shape).Idx → EReal :=
  fun i => layerRow (fun k => hid (ix2 (i 0) k)) (fun k => ini (ix2 (i 0) k)) (fun k => xin (ix2 (i 0) k))
    (fun k j => wl (ix2 k j)) (fun j => bl (ix2 (0 : Fin 1) j)) (fun k j => wr (ix2 k j)) (fun j => br (ix2 (0 : Fin 1) j))
    (fun j => g (ix2 (0 : Fin 1) j)) (fun j => b (ix2 (0 : Fin 1) j)) (i 1)

/-- The array at an entry given by its coordinates. -/
theorem layerArray_apply (hid ini xin : (⟨2, ![100000, 128]⟩ : Shape).Idx → EReal) (wl : (⟨2, ![128, 128]⟩ : Shape).Idx → EReal)
    (bl : (⟨2, ![1, 128]⟩ : Shape).Idx → EReal) (wr : (⟨2, ![128, 128]⟩ : Shape).Idx → EReal)
    (br g b : (⟨2, ![1, 128]⟩ : Shape).Idx → EReal) (r : Fin 100000) (q : Fin 128) :
    layerArray hid ini xin wl bl wr br g b (ix2 r q)
      = layerRow (fun k => hid (ix2 r k)) (fun k => ini (ix2 r k)) (fun k => xin (ix2 r k))
          (fun k j => wl (ix2 k j)) (fun j => bl (ix2 (0 : Fin 1) j)) (fun k j => wr (ix2 k j)) (fun j => br (ix2 (0 : Fin 1) j))
          (fun j => g (ix2 (0 : Fin 1) j)) (fun j => b (ix2 (0 : Fin 1) j)) q := rfl

end Cert.GraphLayer

end
-- ==== Proof.LibColumnLayout.lean ====
/-
  A column kept as a unit axis, read at an index given by coordinates.

  A reduction over the last axis of an `[a, b]` array that keeps that axis (a row maximum or a row sum with the
  reduced axis retained) produces an `[a]` vector, casts it to the column `[a, 1]` and broadcasts the column back
  over the `b` entries of each row. Two facts say what those two steps do to an entry:
    • the vector cast to a column reads, at `(p, u)`, the vector at `p`, whatever the unit coordinate `u`;
    • the column broadcast over `b` columns reads, at `(p, c)`, the column at `(p, 0)`.
  Both are the general shape-cast and broadcast readings with the coordinates' arithmetic done once.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(p, u)`, the operand at `p`, whatever the unit
    coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibMatmulRead.lean ====
/-
  A matrix product and a transpose read entry by entry.

  Three facts about rank-2 arrays of extended reals, each stated at an index given by its two coordinates:
    • the transpose of an `[a, b]` array reads, at `(q, p)`, the operand at `(p, q)`;
    • a matrix product that contracts the second axis of an `[a, k]` array with the first axis of a `[k, b]`
      array, started from the zero accumulator, reads at `(p, q)` the sum over `d` of the left operand at
      `(p, d)` times the right operand at `(d, q)`;
    • so the product of an `[a, k]` array with the TRANSPOSE of a `[b, k]` array reads at `(p, q)` the inner
      product of row `p` of the first with row `q` of the second.
  The record of dimension numbers is any one whose six axis lists are the plain product's; at a literal record each
  of the six hypotheses is `rfl`.
-/
import Idealize.ShloMosaic.PureOps.Ideal.Laws
import Idealize.ShloMosaic.Lib.Pipeline.Value
import Idealize.ShloMosaic.Lib.ValueIdx

namespace Idealize.ShloMosaic.ValueIdx

open Idealize.ShloMosaic

/-- The transpose of an `[a, b]` array reads, at `(q, p)`, the operand at `(p, q)`. -/
theorem transpose_ab_ba_apply {α : Type} {a b : ℕ} (x : (⟨2, ![a, b]⟩ : Shape).Idx → α)
    (h : (⟨2, ![a, b]⟩ : Shape).Transposes [1, 0] ⟨2, ![b, a]⟩) (q : Fin b) (p : Fin a) :
    transpose ⟨2, ![b, a]⟩ [1, 0] x h (ix2 q p) = x (ix2 p q) :=
  transpose_apply [1, 0] x h (ix2 q p) (ix2 p q) fun ax => by
    match ax with
    | ⟨0, _⟩ => rfl
    | ⟨1, _⟩ => rfl

/-- A product contracting the second axis of the left operand with the first axis of the right one, from the zero
    accumulator, read at `(p, q)`: the sum over the contracted coordinate. -/
theorem matmul_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    matmul D prec x w (constant (F := Ideal) ⟨2, ![a, b]⟩ .f32 0x00000000#32) (ix2 p q)
      = ∑ d : Fin k, x (ix2 p d) * w (ix2 d q) := by
  obtain ⟨lc, rc, ln, rn, lb, rb, wf⟩ := D
  dsimp only at hlc hrc hln hrn hlb hrb
  subst hlc hrc hln hrn hlb hrb
  refine (Ideal.matmul_constant_zero_apply _ prec x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- The product of an `[a, k]` array with the transpose of a `[b, k]` array, from the zero accumulator, read at
    `(p, q)`: the inner product of row `p` of the first with row `q` of the second. -/
theorem matmul_transpose_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![b, k]⟩ φ₂)
    (h : (⟨2, ![b, k]⟩ : Shape).Transposes [1, 0] ⟨2, ![k, b]⟩) (p : Fin a) (q : Fin b) :
    matmul D prec x (transpose ⟨2, ![k, b]⟩ [1, 0] w h) (constant (F := Ideal) ⟨2, ![a, b]⟩ .f32 0x00000000#32) (ix2 p q)
      = ∑ d : Fin k, x (ix2 p d) * w (ix2 q d) :=
  (matmul_ix2_apply D hlc hrc hln hrn hlb hrb prec x _ p q).trans
    (Finset.sum_congr rfl fun d _ => congrArg (x (ix2 p d) * ·) (transpose_ab_ba_apply w h d q))

end Idealize.ShloMosaic.ValueIdx
-- ==== Proof.KernelRow.lean ====
/-
  The block computation of the layer, read entry by entry.

  The block program takes a block of 4000 rows of each of the three row-indexed arrays (aggregated rows, initial
  rows, input rows), the two weight matrices whole and the four 128-entry vectors as one-row arrays, and writes the
  block of output rows. This file reads each intermediate array of that computation at one entry (p, q):
    • the blend 0.9·h + 0.1·a is entrywise;
    • the matrix product contracts the 128 entries of row p with column q of the weights, and the bias row is the
      same for every p;
    • the average of the linear map with the blend is entrywise;
    • the sum over the 128 entries of a row, kept as a column and spread back over the row, reads at (p, q) the sum
      of row p; divided by 128 it is the row's mean, and for the squared deviations the row's variance;
    • the reciprocal square root, the gain, the offset, the positive part and the final sum are entrywise.
  Each step is the same operation the row function applies to row p, so entry (p, q) of the output block is the row
  function of row p of the three blocks at q. No algebraic law is used: every step is a reading of one operation.
-/
import proofs.«148300_j53060025975244_1_alg».proof.Proof.Gen.KernelIdeal.Skeleton
import proofs.«148300_j53060025975244_1_alg».proof.Proof.RowSpec
import proofs.«148300_j53060025975244_1_alg».proof.Proof.LibColumnLayout
import proofs.«148300_j53060025975244_1_alg».proof.Proof.LibMatmulRead
import Idealize.ShloMosaic.Lib.ValueIdx
import Idealize.ShloMosaic.Lib.Pipeline.Value
import Idealize.ShloMosaic.Lib.ValueLayout
import Idealize.ShloMosaic.PureOps.Ideal.Laws

noncomputable section

namespace Cert.GraphLayer.Body

open Cert.KernelIdeal Cert.KernelIdeal.Gen Idealize.ShloMosaic Idealize.ShloMosaic.ValueIdx
open scoped BigOperators

/-- Row p of a block of 4000 rows. -/
abbrev rowAt (x : Vec Ideal S4000x128 .f32) (p : Fin 4000) : Fin 128 → EReal := fun k => x (ix2 p k)
/-- A 128 by 128 array as a function of its two coordinates. -/
abbrev matOf (w : Vec Ideal S128x128 .f32) : Fin 128 → Fin 128 → EReal := fun k q => w (ix2 k q)
/-- A one-row array as a function of its column. -/
abbrev vecOf (b : Vec Ideal S1x128 .f32) : Fin 128 → EReal := fun q => b (ix2 (0 : Fin 1) q)

/-! ## The layout steps -/

/-- A one-row array cast to its own shape and spread over 4000 rows reads, at (p, q), the row's entry q. -/
theorem spreadRow_apply (b : Vec Ideal S1x128 .f32) (p : Fin 4000) (q : Fin 128) :
    broadcastTo S4000x128 (shapeCast S1x128 b shapeCasts_S1x128_S1x128) broadcasts_S1x128_S4000x128 (ix2 p q)
      = vecOf b q :=
  (broadcastTo_1b_ab_apply _ broadcasts_S1x128_S4000x128 p q).trans
    (congrFun (shapeCast_self b shapeCasts_S1x128_S1x128) (ix2 (0 : Fin 1) q))

/-- The index a sum over the second axis inserts coordinate k into, at row p, is (p, k). -/
theorem lift_ix1 (p : Fin 4000) (k : Fin 128) : reduces_S4000x128_S4000.lift (ix1 p) k = ix2 p k :=
  funext fun a => Fin.ext (by
    match a with
    | ⟨0, _⟩ => rfl
    | ⟨1, _⟩ => rfl)

/-- The sum over each row's 128 entries, kept as a column, reads at (p, 0) the sum of row p. -/
theorem rowSum_apply (v : FVec Ideal S4000x128 .f32) (p : Fin 4000) :
    shapeCast S4000x1 (multiReduction (F := Ideal) .add [1] S4000 v 0x00000000#32 reduces_S4000x128_S4000 (.inl rfl) rfl)
        shapeCasts_S4000_S4000x1 (ix2 p (0 : Fin 1))
      = ∑ k : Fin 128, v (ix2 p k) := by
  refine (shapeCast_a_a1_apply _ shapeCasts_S4000_S4000x1 p (0 : Fin 1)).trans ?_
  refine (Ideal.multiReduction_add_single v _ reduces_S4000x128_S4000 _ _ (ix1 p)).trans ?_
  exact Finset.sum_congr rfl fun k _ => congrArg v (lift_ix1 p k)

/-! ## The intermediate arrays of the block computation -/

/-- The blend block: 0.9 times the aggregated block plus 0.1 times the initial block. -/
def blendBlk (x0 x1 : Vec Ideal S4000x128 .f32) : FVec Ideal S4000x128 .f32 :=
  addf (mulf (broadcast S4000x128 (Scalar.ofBits (F := Ideal) .f32 0x3F666666#32))
      (shapeCast S4000x128 x0 shapeCasts_S4000x128_S4000x128))
    (mulf (broadcast S4000x128 (Scalar.ofBits (F := Ideal) .f32 0x3DCCCCCD#32)) x1)

/-- The linear map of the blend block: its product with the weight matrix plus the bias row. -/
def linBlk (x0 x1 : Vec Ideal S4000x128 .f32) (x3 : Vec Ideal S128x128 .f32) (x4 : Vec Ideal S1x128 .f32) :
    FVec Ideal S4000x128 .f32 :=
  addf (matmul dot_S4000x128_S128x128_S4000x128_1_0_0_1_n_n none
      (truncf .bf16 (blendBlk x0 x1) bitsLt_bf16_f32)
      (truncf .bf16 (shapeCast S128x128 x3 shapeCasts_S128x128_S128x128) bitsLt_bf16_f32)
      (constant (F := Ideal) S4000x128 .f32 0x00000000#32))
    (broadcastTo S4000x128 (shapeCast S1x128 x4 shapeCasts_S1x128_S1x128) broadcasts_S1x128_S4000x128)

/-- The mixed block: half the linear map plus half the blend. -/
def mixedBlk (x0 x1 : Vec Ideal S4000x128 .f32) (x3 : Vec Ideal S128x128 .f32) (x4 : Vec Ideal S1x128 .f32) :
    FVec Ideal S4000x128 .f32 :=
  addf (mulf (broadcast S4000x128 (Scalar.ofBits (F := Ideal) .f32 0x3F000000#32)) (linBlk x0 x1 x3 x4))
    (mulf (broadcast S4000x128 (Scalar.ofBits (F := Ideal) .f32 0x3F000000#32)) (blendBlk x0 x1))

/-- The column of row means of the mixed block. -/
def meanCol (x0 x1 : Vec Ideal S4000x128 .f32) (x3 : Vec Ideal S128x128 .f32) (x4 : Vec Ideal S1x128 .f32) :
    FVec Ideal S4000x1 .f32 :=
  divf (shapeCast S4000x1
      (multiReduction (F := Ideal) .add [1] S4000 (mixedBlk x0 x1 x3 x4) 0x00000000#32 reduces_S4000x128_S4000 (.inl rfl) rfl)
      shapeCasts_S4000_S4000x1)
    (broadcast S4000x1 (Scalar.ofBits (F := Ideal) .f32 0x43000000#32))

/-- The centered block is the mixed block minus its column of row means spread over the rows. -/
theorem pay2_eq (x0 x1 : Vec Ideal S4000x128 .f32) (x3 : Vec Ideal S128x128 .f32) (x4 : Vec Ideal S1x128 .f32) :
    k0_pay2 (F := Ideal) x0 x1 x3 x4
      = subf (mixedBlk x0 x1 x3 x4) (broadcastTo S4000x128 (meanCol x0 x1 x3 x4) broadcasts_S4000x1_S4000x128) := rfl

/-! ## Each array at an entry -/

section Entries
variable (x0 x1 x2 : Vec Ideal S4000x128 .f32) (x3 x5 : Vec Ideal S128x128 .f32) (x4 x6 x7 x8 : Vec Ideal S1x128 .f32)
  (p : Fin 4000) (q : Fin 128)

/-- The blend block at (p, k) is the blend of row p of the two blocks at k. -/
theorem blend_apply (k : Fin 128) : blendBlk x0 x1 (ix2 p k) = blend (rowAt x0 p) (rowAt x1 p) k := by
  show keep * shapeCast S4000x128 x0 shapeCasts_S4000x128_S4000x128 (ix2 p k) + fresh * x1 (ix2 p k) = _
  rw [shapeCast_self]
  rfl

/-- A product of a block with a whole 128 by 128 array, plus a bias row, at (p, q): the affine map of row p. -/
theorem affine_apply (v : FVec Ideal S4000x128 .f32) (w : Vec Ideal S128x128 .f32) (b : Vec Ideal S1x128 .f32) :
    addf (matmul dot_S4000x128_S128x128_S4000x128_1_0_0_1_n_n none
        (truncf .bf16 v bitsLt_bf16_f32)
        (truncf .bf16 (shapeCast S128x128 w shapeCasts_S128x128_S128x128) bitsLt_bf16_f32)
        (constant (F := Ideal) S4000x128 .f32 0x00000000#32))
      (broadcastTo S4000x128 (shapeCast S1x128 b shapeCasts_S1x128_S1x128) broadcasts_S1x128_S4000x128) (ix2 p q)
      = affine (fun k => v (ix2 p k)) (matOf w) (vecOf b) q := by
  refine congrArg₂ (· + ·) ?_ (spreadRow_apply b p q)
  refine (matmul_ix2_apply dot_S4000x128_S128x128_S4000x128_1_0_0_1_n_n rfl rfl rfl rfl rfl rfl none _ _ p q).trans ?_
  refine Finset.sum_congr rfl fun d _ => congrArg (v (ix2 p d) * ·) ?_
  exact congrFun (shapeCast_self w shapeCasts_S128x128_S128x128) (ix2 d q)

/-- The linear map of the blend at (p, q). -/
theorem lin_apply : linBlk x0 x1 x3 x4 (ix2 p q) = affine (blend (rowAt x0 p) (rowAt x1 p)) (matOf x3) (vecOf x4) q := by
  refine (affine_apply p q (blendBlk x0 x1) x3 x4).trans ?_
  exact congrArg (fun f => affine f (matOf x3) (vecOf x4) q) (funext fun k => blend_apply x0 x1 p k)

/-- The mixed block at (p, q). -/
theorem mixed_apply : mixedBlk x0 x1 x3 x4 (ix2 p q) = mixed (rowAt x0 p) (rowAt x1 p) (matOf x3) (vecOf x4) q := by
  show half * linBlk x0 x1 x3 x4 (ix2 p q) + half * blendBlk x0 x1 (ix2 p q) = _
  rw [lin_apply, blend_apply]
  rfl

/-- The column of means at (p, 0): the mean of the mixed row p. -/
theorem mean_apply : meanCol x0 x1 x3 x4 (ix2 p (0 : Fin 1)) = rowMean (mixed (rowAt x0 p) (rowAt x1 p) (matOf x3) (vecOf x4)) := by
  refine congrArg (Ideal.div · width) ?_
  refine (rowSum_apply (mixedBlk x0 x1 x3 x4) p).trans ?_
  exact Finset.sum_congr rfl fun k _ => mixed_apply x0 x1 x3 x4 p k

/-- The centered block at (p, q): the mixed row p minus its mean, at q. -/
theorem centered_apply :
    k0_pay2 (F := Ideal) x0 x1 x3 x4 (ix2 p q) = centered (mixed (rowAt x0 p) (rowAt x1 p) (matOf x3) (vecOf x4)) q := by
  rw [pay2_eq]
  show mixedBlk x0 x1 x3 x4 (ix2 p q) - broadcastTo S4000x128 (meanCol x0 x1 x3 x4) broadcasts_S4000x1_S4000x128 (ix2 p q) = _
  rw [broadcastTo_a1_ab_apply, mixed_apply, mean_apply]
  rfl

/-- The gain times the centered block at (p, q). -/
theorem gain_apply :
    k0_pay3 (F := Ideal) x0 x1 x3 x4 x7 (ix2 p q)
      = vecOf x7 q * centered (mixed (rowAt x0 p) (rowAt x1 p) (matOf x3) (vecOf x4)) q := by
  show broadcastTo S4000x128 (shapeCast S1x128 x7 shapeCasts_S1x128_S1x128) broadcasts_S1x128_S4000x128 (ix2 p q)
      * k0_pay2 (F := Ideal) x0 x1 x3 x4 (ix2 p q) = _
  rw [spreadRow_apply, centered_apply]

/-- The column of variances plus the floor at (p, 0). -/
theorem var_apply :
    k0_pay4 (F := Ideal) x0 x1 x3 x4 (ix2 p (0 : Fin 1))
      = rowVar (mixed (rowAt x0 p) (rowAt x1 p) (matOf x3) (vecOf x4)) + eps := by
  refine congrArg (· + eps) ?_
  refine congrArg (Ideal.div · width) ?_
  refine (rowSum_apply (mulf (k0_pay2 (F := Ideal) x0 x1 x3 x4) (k0_pay2 (F := Ideal) x0 x1 x3 x4)) p).trans ?_
  exact Finset.sum_congr rfl fun k _ => congrArg₂ (· * ·) (centered_apply x0 x1 x3 x4 p k) (centered_apply x0 x1 x3 x4 p k)

/-- The output block's last steps at (p, q), for any scaled block and any column under the reciprocal root. -/
theorem pay1_apply (s : FVec Ideal S4000x128 .f32) (c : FVec Ideal S4000x1 .f32) :
    k0_pay1 (F := Ideal) s c x8 x2 x5 x6 (ix2 p q)
      = max (s (ix2 p q) * Ideal.rsqrt (c (ix2 p (0 : Fin 1))) + vecOf x8 q) zero
          + affine (rowAt x2 p) (matOf x5) (vecOf x6) q := by
  refine congrArg₂ (· + ·) ?_ (affine_apply p q x2 x5 x6)
  refine congrArg (max · zero) ?_
  refine congrArg₂ (· + ·) ?_ (spreadRow_apply x8 p q)
  refine congrArg (s (ix2 p q) * ·) ?_
  exact broadcastTo_a1_ab_apply (rsqrt c) broadcasts_S4000x1_S4000x128 p q

end Entries

/-- Entry (p, q) of the output block is the row function of row p of the three blocks, at q. -/
theorem out_apply (x0 x1 x2 : Vec Ideal S4000x128 .f32) (x3 : Vec Ideal S128x128 .f32) (x4 : Vec Ideal S1x128 .f32)
    (x5 : Vec Ideal S128x128 .f32) (x6 x7 x8 : Vec Ideal S1x128 .f32) (p : Fin 4000) (q : Fin 128) :
    k0_pay1 (F := Ideal) (k0_pay3 x0 x1 x3 x4 x7) (k0_pay4 x0 x1 x3 x4) x8 x2 x5 x6 (ix2 p q)
      = Cert.GraphLayer.layerRow (fun k => x0 (ix2 p k)) (fun k => x1 (ix2 p k)) (fun k => x2 (ix2 p k))
          (fun k q' => x3 (ix2 k q')) (fun q' => x4 (ix2 (0 : Fin 1) q')) (fun k q' => x5 (ix2 k q'))
          (fun q' => x6 (ix2 (0 : Fin 1) q')) (fun q' => x7 (ix2 (0 : Fin 1) q')) (fun q' => x8 (ix2 (0 : Fin 1) q')) q := by
  refine (pay1_apply x2 x5 x6 x8 p q _ _).trans ?_
  rw [gain_apply, var_apply]
  rfl

end Cert.GraphLayer.Body

end
-- ==== Proof.StageValue.lean ====
/-
  The fused stage's output array.

  The stage runs its body at 25 grid points. At point `t` the body is given rows `4000·t … 4000·t + 3999` of the
  three row-indexed operands (the aggregated array, the initial features, the input features), the six shared
  operands whole, and writes rows `4000·t …` of the output. Entry `(p, q)` of what the body writes is the layer's row
  function of row `p` of the three blocks, and row `p` of a block is row `4000·t + p` of its array; so what point `t`
  writes back is block `t` of ONE array, the layer applied row by row to the nine operand arrays. The 25 blocks
  cover the 100000 rows (row `r` lies in the block of point `r / 4000`), so after the stage the output array is that
  array.

  The facts about reading an array through a block hold of every array, and are stated of an arbitrary one.
-/
import proofs.«148300_j53060025975244_1_alg».proof.Proof.Gen.KernelIdeal.Value
import proofs.«148300_j53060025975244_1_alg».proof.Proof.ArraySpec
import proofs.«148300_j53060025975244_1_alg».proof.Proof.KernelRow
import Idealize.ShloMosaic.Lib.Pipeline.Value
import Idealize.ShloMosaic.Lib.ValueIdx

noncomputable section

namespace Cert.GraphLayer.Stage

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

/-- Every access of the body starts at the origin of its buffer. -/
theorem origin : (![0, 0] : Fin 2 → Nat) = fun _ => 0 := funext fun a => by fin_cases a <;> rfl

/-! ## Where each block sits -/

/-- The output's block at grid point `t` is rows `4000·t …` of all 128 columns. -/
theorem outIndex : ∀ t : Fin cfg0.N, win0_9.index t (0 : Fin 2) = t.val ∧ win0_9.index t (1 : Fin 2) = 0 :=
  (by decide +kernel : ∀ t : Fin grid0.N, _)
/-- Operand 0's block at grid point `t` is rows `4000·t …` of all 128 columns. -/
theorem aggregatedIndex : ∀ t : Fin cfg0.N, win0_0.index t (0 : Fin 2) = t.val ∧ win0_0.index t (1 : Fin 2) = 0 :=
  (by decide +kernel : ∀ t : Fin grid0.N, _)
/-- Operand 1's block at grid point `t` is rows `4000·t …` of all 128 columns. -/
theorem initialIndex : ∀ t : Fin cfg0.N, win0_1.index t (0 : Fin 2) = t.val ∧ win0_1.index t (1 : Fin 2) = 0 :=
  (by decide +kernel : ∀ t : Fin grid0.N, _)
/-- Operand 2's block at grid point `t` is rows `4000·t …` of all 128 columns. -/
theorem inputIndex : ∀ t : Fin cfg0.N, win0_2.index t (0 : Fin 2) = t.val ∧ win0_2.index t (1 : Fin 2) = 0 :=
  (by decide +kernel : ∀ t : Fin grid0.N, _)
/-- Operand 3 is taken whole at every grid point. -/
theorem linWeightIndex : ∀ t : Fin cfg0.N, win0_3.index t (0 : Fin 2) = 0 ∧ win0_3.index t (1 : Fin 2) = 0 :=
  (by decide +kernel : ∀ t : Fin grid0.N, _)
/-- Operand 4 is taken whole at every grid point. -/
theorem linBiasIndex : ∀ t : Fin cfg0.N, win0_4.index t (0 : Fin 2) = 0 ∧ win0_4.index t (1 : Fin 2) = 0 :=
  (by decide +kernel : ∀ t : Fin grid0.N, _)
/-- Operand 5 is taken whole at every grid point. -/
theorem resWeightIndex : ∀ t : Fin cfg0.N, win0_5.index t (0 : Fin 2) = 0 ∧ win0_5.index t (1 : Fin 2) = 0 :=
  (by decide +kernel : ∀ t : Fin grid0.N, _)
/-- Operand 6 is taken whole at every grid point. -/
theorem resBiasIndex : ∀ t : Fin cfg0.N, win0_6.index t (0 : Fin 2) = 0 ∧ win0_6.index t (1 : Fin 2) = 0 :=
  (by decide +kernel : ∀ t : Fin grid0.N, _)
/-- Operand 7 is taken whole at every grid point. -/
theorem gainIndex : ∀ t : Fin cfg0.N, win0_7.index t (0 : Fin 2) = 0 ∧ win0_7.index t (1 : Fin 2) = 0 :=
  (by decide +kernel : ∀ t : Fin grid0.N, _)
/-- Operand 8 is taken whole at every grid point. -/
theorem offsetIndex : ∀ t : Fin cfg0.N, win0_8.index t (0 : Fin 2) = 0 ∧ win0_8.index t (1 : Fin 2) = 0 :=
  (by decide +kernel : ∀ t : Fin grid0.N, _)

/-! ## Any array read through a block

These hold of every array, so they are stated of an arbitrary one. -/

/-- Any array read through operand 0's block at point `t`: entry `(p, k)` is the array at row `4000·t + p`,
    column `k`. -/
theorem aggregated_read (t : Fin cfg0.N) (A : S100000x128.Idx → EReal) (p : Fin 4000) (k : Fin 128) (i : S100000x128.Idx)
    (h0 : (i 0).val = t.val * 4000 + p.val) (h1 : (i 1).val = k.val) :
    ((cfg0.win 0).blk t).view.read (Elt Ideal) A (ix2 p k) = A i := by
  obtain ⟨e0, e1⟩ := aggregatedIndex t
  rw [View.read_apply]
  show A _ = A _
  refine congrArg A (funext fun a => Fin.ext ?_)
  match a with
  | ⟨0, _⟩ => show win0_0.index t (0 : Fin 2) * 4000 + 1 * p.val = (i 0).val; omega
  | ⟨1, _⟩ => show win0_0.index t (1 : Fin 2) * 128 + 1 * k.val = (i 1).val; omega

/-- Any array read through operand 1's block at point `t`: entry `(p, k)` is the array at row `4000·t + p`,
    column `k`. -/
theorem initial_read (t : Fin cfg0.N) (A : S100000x128.Idx → EReal) (p : Fin 4000) (k : Fin 128) (i : S100000x128.Idx)
    (h0 : (i 0).val = t.val * 4000 + p.val) (h1 : (i 1).val = k.val) :
    ((cfg0.win 1).blk t).view.read (Elt Ideal) A (ix2 p k) = A i := by
  obtain ⟨e0, e1⟩ := initialIndex t
  rw [View.read_apply]
  show A _ = A _
  refine congrArg A (funext fun a => Fin.ext ?_)
  match a with
  | ⟨0, _⟩ => show win0_1.index t (0 : Fin 2) * 4000 + 1 * p.val = (i 0).val; omega
  | ⟨1, _⟩ => show win0_1.index t (1 : Fin 2) * 128 + 1 * k.val = (i 1).val; omega

/-- Any array read through operand 2's block at point `t`: entry `(p, k)` is the array at row `4000·t + p`,
    column `k`. -/
theorem input_read (t : Fin cfg0.N) (A : S100000x128.Idx → EReal) (p : Fin 4000) (k : Fin 128) (i : S100000x128.Idx)
    (h0 : (i 0).val = t.val * 4000 + p.val) (h1 : (i 1).val = k.val) :
    ((cfg0.win 2).blk t).view.read (Elt Ideal) A (ix2 p k) = A i := by
  obtain ⟨e0, e1⟩ := inputIndex t
  rw [View.read_apply]
  show A _ = A _
  refine congrArg A (funext fun a => Fin.ext ?_)
  match a with
  | ⟨0, _⟩ => show win0_2.index t (0 : Fin 2) * 4000 + 1 * p.val = (i 0).val; omega
  | ⟨1, _⟩ => show win0_2.index t (1 : Fin 2) * 128 + 1 * k.val = (i 1).val; omega

/-- Any array read through operand 3's block is the array itself: the block is the whole array. -/
theorem linWeight_read (t : Fin cfg0.N) (A : S128x128.Idx → EReal) (k j : Fin 128) :
    ((cfg0.win 3).blk t).view.read (Elt Ideal) A (ix2 k j) = A (ix2 k j) := by
  obtain ⟨e0, e1⟩ := linWeightIndex t
  rw [View.read_apply]
  show A _ = A _
  refine congrArg A (funext fun a => Fin.ext ?_)
  match a with
  | ⟨0, _⟩ => show win0_3.index t (0 : Fin 2) * 128 + 1 * k.val = k.val; omega
  | ⟨1, _⟩ => show win0_3.index t (1 : Fin 2) * 128 + 1 * j.val = j.val; omega

/-- Any one-row array read through operand 4's block is the array itself. -/
theorem linBias_read (t : Fin cfg0.N) (A : S1x128.Idx → EReal) (u : Fin 1) (j : Fin 128) :
    ((cfg0.win 4).blk t).view.read (Elt Ideal) A (ix2 u j) = A (ix2 u j) := by
  obtain ⟨e0, e1⟩ := linBiasIndex t
  rw [View.read_apply]
  show A _ = A _
  refine congrArg A (funext fun a => Fin.ext ?_)
  match a with
  | ⟨0, _⟩ => show win0_4.index t (0 : Fin 2) * 1 + 1 * u.val = u.val; omega
  | ⟨1, _⟩ => show win0_4.index t (1 : Fin 2) * 128 + 1 * j.val = j.val; omega

/-- Any array read through operand 5's block is the array itself: the block is the whole array. -/
theorem resWeight_read (t : Fin cfg0.N) (A : S128x128.Idx → EReal) (k j : Fin 128) :
    ((cfg0.win 5).blk t).view.read (Elt Ideal) A (ix2 k j) = A (ix2 k j) := by
  obtain ⟨e0, e1⟩ := resWeightIndex t
  rw [View.read_apply]
  show A _ = A _
  refine congrArg A (funext fun a => Fin.ext ?_)
  match a with
  | ⟨0, _⟩ => show win0_5.index t (0 : Fin 2) * 128 + 1 * k.val = k.val; omega
  | ⟨1, _⟩ => show win0_5.index t (1 : Fin 2) * 128 + 1 * j.val = j.val; omega

/-- Any one-row array read through operand 6's block is the array itself. -/
theorem resBias_read (t : Fin cfg0.N) (A : S1x128.Idx → EReal) (u : Fin 1) (j : Fin 128) :
    ((cfg0.win 6).blk t).view.read (Elt Ideal) A (ix2 u j) = A (ix2 u j) := by
  obtain ⟨e0, e1⟩ := resBiasIndex t
  rw [View.read_apply]
  show A _ = A _
  refine congrArg A (funext fun a => Fin.ext ?_)
  match a with
  | ⟨0, _⟩ => show win0_6.index t (0 : Fin 2) * 1 + 1 * u.val = u.val; omega
  | ⟨1, _⟩ => show win0_6.index t (1 : Fin 2) * 128 + 1 * j.val = j.val; omega

/-- Any one-row array read through operand 7's block is the array itself. -/
theorem gain_read (t : Fin cfg0.N) (A : S1x128.Idx → EReal) (u : Fin 1) (j : Fin 128) :
    ((cfg0.win 7).blk t).view.read (Elt Ideal) A (ix2 u j) = A (ix2 u j) := by
  obtain ⟨e0, e1⟩ := gainIndex t
  rw [View.read_apply]
  show A _ = A _
  refine congrArg A (funext fun a => Fin.ext ?_)
  match a with
  | ⟨0, _⟩ => show win0_7.index t (0 : Fin 2) * 1 + 1 * u.val = u.val; omega
  | ⟨1, _⟩ => show win0_7.index t (1 : Fin 2) * 128 + 1 * j.val = j.val; omega

/-- Any one-row array read through operand 8's block is the array itself. -/
theorem offset_read (t : Fin cfg0.N) (A : S1x128.Idx → EReal) (u : Fin 1) (j : Fin 128) :
    ((cfg0.win 8).blk t).view.read (Elt Ideal) A (ix2 u j) = A (ix2 u j) := by
  obtain ⟨e0, e1⟩ := offsetIndex t
  rw [View.read_apply]
  show A _ = A _
  refine congrArg A (funext fun a => Fin.ext ?_)
  match a with
  | ⟨0, _⟩ => show win0_8.index t (0 : Fin 2) * 1 + 1 * u.val = u.val; omega
  | ⟨1, _⟩ => show win0_8.index t (1 : Fin 2) * 128 + 1 * j.val = j.val; omega

/-- Any array read through the output's block at point `t`, at an entry of the block, is the array at the entry's
    place in the array. -/
theorem out_read (t : Fin cfg0.N) (G : S100000x128.Idx → EReal) (x : S4000x128.Idx) :
    ((cfg0.win 9).blk t).view.read (Elt Ideal) G x = G (((cfg0.win 9).blk t).view.emb x) := rfl

variable (m : (ℓ : Loc nD τ sig) → Buf (Elt Ideal) ℓ) (ρ : Dev nD → PrngReg)

/-! ## The stage's output array -/

/-- The stage's output array: the layer, row by row, of the nine operand arrays as the stage finds them
    (operand `w`'s array is `V m c (Pipeline.arrRef spec0 w)`). -/
abbrev stageOut (c : Dev nD) : S100000x128.Idx → EReal :=
  layerArray (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))
    (V m c (Pipeline.arrRef spec0 6)) (V m c (Pipeline.arrRef spec0 7)) (V m c (Pipeline.arrRef spec0 8))

/-- The row function of row `p` of the blocks at point `t` is the output array's entry at row `4000·t + p`. -/
theorem row_of_block (c : Dev nD) (t : Fin cfg0.N) (p : Fin 4000) (q : Fin 128) (i : S100000x128.Idx)
    (h0 : (i 0).val = t.val * 4000 + p.val) (h1 : (i 1).val = q.val) :
    layerRow (fun k => (iblk m c 0 t : S4000x128.Idx → EReal) (ix2 p k))
        (fun k => (iblk m c 1 t : S4000x128.Idx → EReal) (ix2 p k))
        (fun k => (iblk m c 2 t : S4000x128.Idx → EReal) (ix2 p k))
        (fun k j => (iblk m c 3 t : S128x128.Idx → EReal) (ix2 k j))
        (fun j => (iblk m c 4 t : S1x128.Idx → EReal) (ix2 (0 : Fin 1) j))
        (fun k j => (iblk m c 5 t : S128x128.Idx → EReal) (ix2 k j))
        (fun j => (iblk m c 6 t : S1x128.Idx → EReal) (ix2 (0 : Fin 1) j))
        (fun j => (iblk m c 7 t : S1x128.Idx → EReal) (ix2 (0 : Fin 1) j))
        (fun j => (iblk m c 8 t : S1x128.Idx → EReal) (ix2 (0 : Fin 1) j)) q
      = stageOut m c i := by
  show layerRow _ _ _ _ _ _ _ _ _ _ = layerRow _ _ _ _ _ _ _ _ _ _
  exact layerRow_congr
    (fun k => aggregated_read t (V m c (Pipeline.arrRef spec0 0)) p k (ix2 (i 0) k) h0 rfl)
    (fun k => initial_read t (V m c (Pipeline.arrRef spec0 1)) p k (ix2 (i 0) k) h0 rfl)
    (fun k => input_read t (V m c (Pipeline.arrRef spec0 2)) p k (ix2 (i 0) k) h0 rfl)
    (fun k j => linWeight_read t (V m c (Pipeline.arrRef spec0 3)) k j)
    (fun j => linBias_read t (V m c (Pipeline.arrRef spec0 4)) 0 j)
    (fun k j => resWeight_read t (V m c (Pipeline.arrRef spec0 5)) k j)
    (fun j => resBias_read t (V m c (Pipeline.arrRef spec0 6)) 0 j)
    (fun j => gain_read t (V m c (Pipeline.arrRef spec0 7)) 0 j)
    (fun j => offset_read t (V m c (Pipeline.arrRef spec0 8)) 0 j)
    (Fin.ext h1.symm)

/-! ## What each point writes back, and the whole array -/

/-- What grid point `t` writes back is block `t` of the layer's output array. -/
theorem flushed_eq (c : Dev nD) (t : Fin cfg0.N) :
    (dats m 0 c).flushed 9 t = ((cfg0.win 9).blk t).view.read (Elt Ideal) (stageOut m c) := by
  rw [flushed9]
  unfold out0_9
  rw [View.canon_unit_zero origin]
  simp only [View.ld_unit_zero (S := S4000x128) origin, View.ld_unit_zero (S := S128x128) origin,
    View.ld_unit_zero (S := S1x128) origin]
  obtain ⟨e0, e1⟩ := outIndex t
  funext j
  obtain ⟨p, q, rfl⟩ : ∃ (p : Fin 4000) (q : Fin 128), j = ix2 p q := ⟨j 0, j 1, eq_ix2 j⟩
  have hx : (cfg0.win 9).xinj (grid0.coords t) (ix2 p q) = (ix2 p q : S4000x128.Idx) := funext fun a => Fin.ext rfl
  refine (congrArg (k0_pay1 (F := Ideal)
      (k0_pay3 (iblk m c 0 t) (iblk m c 1 t) (iblk m c 3 t) (iblk m c 4 t) (iblk m c 7 t))
      (k0_pay4 (iblk m c 0 t) (iblk m c 1 t) (iblk m c 3 t) (iblk m c 4 t)) (iblk m c 8 t) (iblk m c 2 t)
      (iblk m c 5 t) (iblk m c 6 t)) hx).trans ?_
  refine (Body.out_apply (iblk m c 0 t) (iblk m c 1 t) (iblk m c 2 t) (iblk m c 3 t) (iblk m c 4 t) (iblk m c 5 t)
    (iblk m c 6 t) (iblk m c 7 t) (iblk m c 8 t) p q).trans ?_
  refine (row_of_block m c t p q (((cfg0.win 9).blk t).view.emb (ix2 p q)) ?_ ?_).trans
    (out_read t (stageOut m c) (ix2 p q)).symm
  · show win0_9.index t (0 : Fin 2) * 4000 + 1 * p.val = t.val * 4000 + p.val
    omega
  · show win0_9.index t (1 : Fin 2) * 128 + 1 * q.val = q.val
    omega

/-- An index of the output array lies in point `t`'s block iff each coordinate lies in the block's range. -/
theorem mem_block (t : Fin cfg0.N) (i : S100000x128.Idx) :
    i ∈ ((cfg0.win 9).blk t).view.set ↔ ∀ a : Fin 2, win0_9.index t a * S4000x128.size a ≤ (i a).val
      ∧ (i a).val < win0_9.index t a * S4000x128.size a + S4000x128.size a := by
  show i ∈ ((View.whole main_v23).slice (win0_9.rect t)).set ↔ _
  rw [View.set_slice_whole, Rect.mem_set_unit]
  exact Iff.rfl

/-- Every index of the output array lies in some point's block: row `r` in the block of point `r / 4000`. -/
theorem covered (i : S100000x128.Idx) :
    ∃ t : Fin cfg0.N, (cfg0.win 9).flush t = true ∧ i ∈ ((cfg0.win 9).blk t).view.set := by
  have h0 : (i 0).val < 100000 := (i 0).isLt
  have h1 : (i 1).val < 128 := (i 1).isLt
  have hN : grid0.N = 25 := N_0
  have ht : (i 0).val / 4000 < grid0.N := by rw [hN]; omega
  refine ⟨⟨(i 0).val / 4000, ht⟩, flush0_9 _, ?_⟩
  rw [mem_block]
  obtain ⟨e0, e1⟩ := outIndex ⟨(i 0).val / 4000, ht⟩
  intro a
  match a with
  | ⟨0, _⟩ =>
    show win0_9.index ⟨(i 0).val / 4000, ht⟩ (0 : Fin 2) * 4000 ≤ (i 0).val
      ∧ (i 0).val < win0_9.index ⟨(i 0).val / 4000, ht⟩ (0 : Fin 2) * 4000 + 4000
    rw [e0]
    show (i 0).val / 4000 * 4000 ≤ (i 0).val ∧ (i 0).val < (i 0).val / 4000 * 4000 + 4000
    omega
  | ⟨1, _⟩ =>
    show win0_9.index ⟨(i 0).val / 4000, ht⟩ (1 : Fin 2) * 128 ≤ (i 1).val
      ∧ (i 1).val < win0_9.index ⟨(i 0).val / 4000, ht⟩ (1 : Fin 2) * 128 + 128
    rw [e1]
    omega

/-- After the stage the output array holds the layer's output. -/
theorem final (c : Dev nD) : (dats m 0 c).arrAt 9 cfg0.N = stageOut m c :=
  (dats m 0 c).arrAt_eq_of_cover 9 (stageOut m c) (fun t _ => flushed_eq m c t) covered

/-- The program's run, read: the result array ends at the layer's output, the arguments unchanged. -/
theorem run : θ_run defs (onTc (τ := τ) (main (F := Ideal))) ⟨m, fun _ => 0, ρ⟩ fun r => ∀ c : Dev nD,
      r.2.mem ((c : Thread nD τ).loc main_v23) = stageOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (run_blocks m ρ)

end Cert.GraphLayer.Stage

end
-- ==== Proof.HostArrays.lean ====
/-
  What the fused stage finds in its nine operand arrays.

  Before the fused stage runs, the program has computed the aggregated neighbour array (a gather of the input rows
  by source node, scaled by the edge weights and summed into the destination rows), has transposed the two weight
  matrices and has reshaped the four vectors of 128 entries into single rows `[1, 128]`. So, read at an entry:
    • the first weight operand at `(k, q)` is the linear weight at `(q, k)`, and likewise the residual weight;
    • each single-row operand at `(0, q)` is its vector at `q`;
    • the aggregated array is the same composition of operations as the reference's aggregated array
      (the two are one term, operation for operation), so it is never opened here.
-/
import proofs.«148300_j53060025975244_1_alg».proof.Proof.Gen.KernelIdeal.Frame
import proofs.«148300_j53060025975244_1_alg».proof.Proof.Gen.ReferenceIdeal.Read
import Idealize.ShloMosaic.Lib.StableHlo.Run
import Idealize.ShloMosaic.Lib.ValueLayout

noncomputable section

namespace Cert.GraphLayer.Entry

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]
variable (m : (ℓ : Loc nD τ sig) → Buf (Elt F) ℓ)

set_option maxHeartbeats 2000000 in
/-- The aggregated array the stage reads is the reference's aggregated array of the same three arguments. -/
theorem aggregated (c : Dev nD) :
    (V m c main_v16 : S100000x128.Idx → Elt F .f32)
      = Cert.ReferenceIdeal.Read.val_main_v16 (F := F) (m ((c : Thread nD τ).loc main_arg0))
          (m ((c : Thread nD τ).loc main_arg1)) (m ((c : Thread nD τ).loc main_arg2)) := by
  dsimp only [V, hostOps0]
  after_results_simp
  rfl

/-- The first weight operand is the linear weight transposed. -/
theorem linWeight (c : Dev nD) :
    (V m c main_v17 : S128x128.Idx → Elt F .f32)
      = transpose S128x128 [1, 0] (m ((c : Thread nD τ).loc main_arg4)) transposes_S128x128_S128x128_1_0 := by
  dsimp only [V, hostOps0]
  after_results_simp <;> rfl

/-- The second weight operand is the residual weight transposed. -/
theorem resWeight (c : Dev nD) :
    (V m c main_v18 : S128x128.Idx → Elt F .f32)
      = transpose S128x128 [1, 0] (m ((c : Thread nD τ).loc main_arg6)) transposes_S128x128_S128x128_1_0 := by
  dsimp only [V, hostOps0]
  after_results_simp <;> rfl

/-- The linear bias as a single row. -/
theorem linBias (c : Dev nD) :
    (V m c main_v19 : S1x128.Idx → Elt F .f32) = shapeCast S1x128 (m ((c : Thread nD τ).loc main_arg5)) shapeCasts_S128_S1x128 := by
  dsimp only [V, hostOps0]
  after_results_simp <;> rfl

/-- The residual bias as a single row. -/
theorem resBias (c : Dev nD) :
    (V m c main_v20 : S1x128.Idx → Elt F .f32) = shapeCast S1x128 (m ((c : Thread nD τ).loc main_arg7)) shapeCasts_S128_S1x128 := by
  dsimp only [V, hostOps0]
  after_results_simp <;> rfl

/-- The gain as a single row. -/
theorem gain (c : Dev nD) :
    (V m c main_v21 : S1x128.Idx → Elt F .f32) = shapeCast S1x128 (m ((c : Thread nD τ).loc main_arg8)) shapeCasts_S128_S1x128 := by
  dsimp only [V, hostOps0]
  after_results_simp <;> rfl

/-- The offset as a single row. -/
theorem offset (c : Dev nD) :
    (V m c main_v22 : S1x128.Idx → Elt F .f32) = shapeCast S1x128 (m ((c : Thread nD τ).loc main_arg9)) shapeCasts_S128_S1x128 := by
  dsimp only [V, hostOps0]
  after_results_simp <;> rfl

/-- The first weight operand at `(k, q)` is the linear weight at `(q, k)`. -/
theorem linWeight_apply (c : Dev nD) (k q : Fin 128) :
    (V m c main_v17 : S128x128.Idx → Elt F .f32) (ix2 k q)
      = (m ((c : Thread nD τ).loc main_arg4) : S128x128.Idx → Elt F .f32) (ix2 q k) :=
  (congrFun (linWeight m c) _).trans (transpose_ix2_apply _ _ k q)

/-- The second weight operand at `(k, q)` is the residual weight at `(q, k)`. -/
theorem resWeight_apply (c : Dev nD) (k q : Fin 128) :
    (V m c main_v18 : S128x128.Idx → Elt F .f32) (ix2 k q)
      = (m ((c : Thread nD τ).loc main_arg6) : S128x128.Idx → Elt F .f32) (ix2 q k) :=
  (congrFun (resWeight m c) _).trans (transpose_ix2_apply _ _ k q)

/-- The linear bias row at `(0, q)` is the bias at `q`. -/
theorem linBias_apply (c : Dev nD) (q : Fin 128) :
    (V m c main_v19 : S1x128.Idx → Elt F .f32) (ix2 (0 : Fin 1) q)
      = (m ((c : Thread nD τ).loc main_arg5) : S128.Idx → Elt F .f32) (ix1 q) :=
  (congrFun (linBias m c) _).trans (shapeCast_a_1a_apply _ _ 0 q)

/-- The residual bias row at `(0, q)` is the bias at `q`. -/
theorem resBias_apply (c : Dev nD) (q : Fin 128) :
    (V m c main_v20 : S1x128.Idx → Elt F .f32) (ix2 (0 : Fin 1) q)
      = (m ((c : Thread nD τ).loc main_arg7) : S128.Idx → Elt F .f32) (ix1 q) :=
  (congrFun (resBias m c) _).trans (shapeCast_a_1a_apply _ _ 0 q)

/-- The gain row at `(0, q)` is the gain at `q`. -/
theorem gain_apply (c : Dev nD) (q : Fin 128) :
    (V m c main_v21 : S1x128.Idx → Elt F .f32) (ix2 (0 : Fin 1) q)
      = (m ((c : Thread nD τ).loc main_arg8) : S128.Idx → Elt F .f32) (ix1 q) :=
  (congrFun (gain m c) _).trans (shapeCast_a_1a_apply _ _ 0 q)

/-- The offset row at `(0, q)` is the offset at `q`. -/
theorem offset_apply (c : Dev nD) (q : Fin 128) :
    (V m c main_v22 : S1x128.Idx → Elt F .f32) (ix2 (0 : Fin 1) q)
      = (m ((c : Thread nD τ).loc main_arg9) : S128.Idx → Elt F .f32) (ix1 q) :=
  (congrFun (offset m c) _).trans (shapeCast_a_1a_apply _ _ 0 q)

end Cert.GraphLayer.Entry

end
-- ==== Proof.RefRow.lean ====
import proofs.«148300_j53060025975244_1_alg».proof.Proof.Gen.ReferenceIdeal.Read
import proofs.«148300_j53060025975244_1_alg».proof.Proof.RowSpec
import Idealize.ShloMosaic.Lib.ValueIdx
import Idealize.ShloMosaic.PureOps.Ideal.Laws

/-!
  The reference program read row by row.

  Every host operation of the reference writes an array whose entry at row `r`, column `q` depends only on
  row `r` of the three row-indexed arrays (the aggregated array, the initial features, the input features)
  and on the shared weights. This file follows the operations in program order and identifies each
  intermediate array, at a coordinate index, with the matching piece of `Cert.GraphLayer.layerRow`:
  the blend, the affine map of the blend, the mixed row, its sum and mean, the centered row, the sum of
  squares and the variance, the reciprocal standard deviation, the normalised row, its positive part, and
  the residual projection. The aggregated array is never opened: it enters only through its entries.

  The two sides are the same operations in the same order, so every step is a rewrite by an operation's
  value at an index followed by `rfl`. The one algebraic fact used is `0 + s = s`, for the zero a host sum
  starts from. Each index equation says that a composed index function, at a coordinate index, is again a
  coordinate index; each is checked axis by axis.
-/

noncomputable section

namespace Cert.GraphLayer.Ref

open Cert.ReferenceIdeal Cert.ReferenceIdeal.Read Idealize.ShloMosaic Idealize.ShloMosaic.ValueIdx

variable (x0 : (⟨S2x1600000, .i32⟩ : BufTy).Contents (Elt Ideal)) (x1 : (⟨S1600000, .f32⟩ : BufTy).Contents (Elt Ideal))
  (x2 x3 : (⟨S100000x128, .f32⟩ : BufTy).Contents (Elt Ideal)) (x4 : (⟨S128x128, .f32⟩ : BufTy).Contents (Elt Ideal))
  (x5 : (⟨S128, .f32⟩ : BufTy).Contents (Elt Ideal)) (x6 : (⟨S128x128, .f32⟩ : BufTy).Contents (Elt Ideal))
  (x7 x8 x9 : (⟨S128, .f32⟩ : BufTy).Contents (Elt Ideal))

/-! ## The rows and the weights, by coordinates -/

/-- Row `r` of the aggregated array. -/
abbrev aggRow (r : Fin 100000) : Fin 128 → EReal := fun k => val_main_v16 (F := Ideal) x0 x1 x2 (ix2 r k)
/-- Row `r` of the initial features. -/
abbrev initRow (r : Fin 100000) : Fin 128 → EReal := fun k => x3 (ix2 r k)
/-- Row `r` of the input features. -/
abbrev inRow (r : Fin 100000) : Fin 128 → EReal := fun k => x2 (ix2 r k)
/-- The linear map's matrix, indexed `[contracted, output]`: the stored matrix transposed. -/
abbrev linW : Fin 128 → Fin 128 → EReal := fun k q' => x4 (ix2 q' k)
/-- The linear map's bias. -/
abbrev linB : Fin 128 → EReal := fun q' => x5 (ix1 q')
/-- The residual projection's matrix, indexed `[contracted, output]`: the stored matrix transposed. -/
abbrev resW : Fin 128 → Fin 128 → EReal := fun k q' => x6 (ix2 q' k)
/-- The residual projection's bias. -/
abbrev resB : Fin 128 → EReal := fun q' => x7 (ix1 q')
/-- The normalisation's gain. -/
abbrev gain : Fin 128 → EReal := fun q' => x8 (ix1 q')
/-- The normalisation's offset. -/
abbrev offset : Fin 128 → EReal := fun q' => x9 (ix1 q')
/-- The mixed row `r`: the row the normalisation acts on. -/
abbrev mixedRow (r : Fin 100000) : Fin 128 → EReal :=
  mixed (aggRow x0 x1 x2 r) (initRow x3 r) (linW x4) (linB x5)

/-! ## The blend -/

/-- The blend's array at `(r, k)` is the blend of row `r` at `k`. -/
theorem blend_apply (r : Fin 100000) (k : Fin 128) :
    val_main_v21 (F := Ideal) x0 x1 x2 x3 (ix2 r k) = blend (aggRow x0 x1 x2 r) (initRow x3 r) k := by
  rw [val_main_v21_apply, val_main_v18_apply, val_main_v20_apply, val_main_v17_apply, val_main_v19_apply,
    val_main_cst_1_apply, val_main_cst_2_apply]
  rfl

/-! ## The affine map of the blend -/

/-- The left operand of the first product is read along row `r`. -/
theorem linLeft_index (r : Fin 100000) (q k : Fin 128) : lidx_main_v23 (ix2 r q) k = ix2 r k :=
  funext fun a => Fin.ext (by match a with | ⟨0, _⟩ => rfl | ⟨1, _⟩ => rfl)

/-- The right operand of the first product, the transposed matrix at `(k, q)`, is the stored matrix at `(q, k)`. -/
theorem linRight_index (r : Fin 100000) (q k : Fin 128) : idx_main_v22 (ridx_main_v23 (ix2 r q) k) = ix2 q k :=
  funext fun a => Fin.ext (by match a with | ⟨0, _⟩ => rfl | ⟨1, _⟩ => rfl)

/-- The bias broadcast over rows is read at the column. -/
theorem linBias_index (r : Fin 100000) (q : Fin 128) : idx_main_v24 (idx_main_v25 (ix2 r q)) = ix1 q :=
  funext fun a => Fin.ext (by match a with | ⟨0, _⟩ => rfl)

/-- The affine map's array at `(r, q)`. -/
theorem affine_apply (r : Fin 100000) (q : Fin 128) :
    val_main_v26 (F := Ideal) x0 x1 x2 x3 x4 x5 (ix2 r q)
      = affine (blend (aggRow x0 x1 x2 r) (initRow x3 r)) (linW x4) (linB x5) q := by
  rw [val_main_v26_apply, val_main_v23_apply, val_main_v25_apply, val_main_v24_apply, linBias_index]
  have hs : ∀ k : Fin 128,
      val_main_v21 (F := Ideal) x0 x1 x2 x3 (lidx_main_v23 (ix2 r q) k) * val_main_v22 (F := Ideal) x4 (ridx_main_v23 (ix2 r q) k)
        = blend (aggRow x0 x1 x2 r) (initRow x3 r) k * linW x4 k q := fun k => by
    rw [linLeft_index, blend_apply, val_main_v22_apply, linRight_index]
  exact congrArg₂ (· + ·) (Finset.sum_congr rfl fun k _ => hs k) rfl

/-! ## The mixed row -/

/-- The mixed array at `(r, q)`. -/
theorem mixed_apply (r : Fin 100000) (q : Fin 128) :
    val_main_v31 (F := Ideal) x0 x1 x2 x3 x4 x5 (ix2 r q) = mixedRow x0 x1 x2 x3 x4 x5 r q := by
  rw [val_main_v31_apply, val_main_v28_apply, val_main_v30_apply, val_main_v27_apply, val_main_v29_apply,
    val_main_cst_3_apply, val_main_cst_4_apply, affine_apply, blend_apply]
  rfl

/-! ## The mean -/

/-- The summed entries of row `r` are read along row `r`. -/
theorem rowSum_index (r : Fin 100000) (k : Fin 128) : idx_main_v32 (ix1 r) k = ix2 r k :=
  funext fun a => Fin.ext (by match a with | ⟨0, _⟩ => rfl | ⟨1, _⟩ => rfl)

/-- The sum of the mixed array over row `r`: the host sum starts from zero, and `0 + s = s`. -/
theorem rowSum_apply (r : Fin 100000) :
    val_main_v32 (F := Ideal) x0 x1 x2 x3 x4 x5 (ix1 r) = ∑ q : Fin 128, mixedRow x0 x1 x2 x3 x4 x5 r q := by
  rw [val_main_v32_apply, val_main_cst_5_apply, Ideal.ofBits_def, Ideal.ofBits_zero_f32, zero_add]
  exact Finset.sum_congr rfl fun k _ => by rw [rowSum_index, mixed_apply]

/-- The column of sums at `(r, 0)` is the vector of sums at `r`. -/
theorem sumColumn_index (r : Fin 100000) : idx_main_v33 (ix2 r (0 : Fin 1)) = ix1 r :=
  funext fun a => Fin.ext (by match a with | ⟨0, _⟩ => rfl)

/-- The column of means at `(r, 0)` is the mean of the mixed row `r`. -/
theorem mean_apply (r : Fin 100000) :
    val_main_v35 (F := Ideal) x0 x1 x2 x3 x4 x5 (ix2 r (0 : Fin 1)) = rowMean (mixedRow x0 x1 x2 x3 x4 x5 r) := by
  rw [val_main_v35_apply, val_main_v33_apply, val_main_v34_apply, val_main_cst_6_apply, sumColumn_index, rowSum_apply]
  rfl

/-! ## The centered row -/

/-- The column of means broadcast along rows is read at `(r, 0)` (first use). -/
theorem meanBroadcast_index (r : Fin 100000) (q : Fin 128) : idx_main_v36 (ix2 r q) = ix2 r (0 : Fin 1) :=
  funext fun a => Fin.ext (by match a with | ⟨0, _⟩ => rfl | ⟨1, _⟩ => rfl)

/-- The column of means broadcast along rows is read at `(r, 0)` (second use). -/
theorem meanBroadcast_index' (r : Fin 100000) (q : Fin 128) : idx_main_v43 (ix2 r q) = ix2 r (0 : Fin 1) :=
  funext fun a => Fin.ext (by match a with | ⟨0, _⟩ => rfl | ⟨1, _⟩ => rfl)

/-- The centered array the variance is taken of, at `(r, q)`. -/
theorem centeredForVar_apply (r : Fin 100000) (q : Fin 128) :
    val_main_v37 (F := Ideal) x0 x1 x2 x3 x4 x5 (ix2 r q) = centered (mixedRow x0 x1 x2 x3 x4 x5 r) q := by
  rw [val_main_v37_apply, val_main_v36_apply, meanBroadcast_index, mean_apply, mixed_apply]
  rfl

/-- The centered array the gain multiplies, at `(r, q)`. -/
theorem centered_apply (r : Fin 100000) (q : Fin 128) :
    val_main_v44 (F := Ideal) x0 x1 x2 x3 x4 x5 (ix2 r q) = centered (mixedRow x0 x1 x2 x3 x4 x5 r) q := by
  rw [val_main_v44_apply, val_main_v43_apply, meanBroadcast_index', mean_apply, mixed_apply]
  rfl

/-! ## The variance -/

/-- The summed squares of row `r` are read along row `r`. -/
theorem sqSum_index (r : Fin 100000) (k : Fin 128) : idx_main_v39 (ix1 r) k = ix2 r k :=
  funext fun a => Fin.ext (by match a with | ⟨0, _⟩ => rfl | ⟨1, _⟩ => rfl)

/-- The sum of the squared deviations over row `r`: again the host sum starts from zero. -/
theorem sqSum_apply (r : Fin 100000) :
    val_main_v39 (F := Ideal) x0 x1 x2 x3 x4 x5 (ix1 r)
      = ∑ q : Fin 128, centered (mixedRow x0 x1 x2 x3 x4 x5 r) q * centered (mixedRow x0 x1 x2 x3 x4 x5 r) q := by
  rw [val_main_v39_apply, val_main_cst_7_apply, Ideal.ofBits_def, Ideal.ofBits_zero_f32, zero_add]
  exact Finset.sum_congr rfl fun k _ => by
    rw [sqSum_index, val_main_v38_apply, centeredForVar_apply]
    rfl

/-- The column of summed squares at `(r, 0)` is the vector of summed squares at `r`. -/
theorem sqSumColumn_index (r : Fin 100000) : idx_main_v40 (ix2 r (0 : Fin 1)) = ix1 r :=
  funext fun a => Fin.ext (by match a with | ⟨0, _⟩ => rfl)

/-- The column of variances at `(r, 0)` is the variance of the mixed row `r`. -/
theorem var_apply (r : Fin 100000) :
    val_main_v42 (F := Ideal) x0 x1 x2 x3 x4 x5 (ix2 r (0 : Fin 1)) = rowVar (mixedRow x0 x1 x2 x3 x4 x5 r) := by
  rw [val_main_v42_apply, val_main_v40_apply, val_main_v41_apply, val_main_cst_8_apply, sqSumColumn_index, sqSum_apply]
  rfl

/-! ## The normalised row -/

/-- The column of reciprocal standard deviations broadcast along rows is read at `(r, 0)`. -/
theorem rstdBroadcast_index (r : Fin 100000) (q : Fin 128) : idx_main_v51 (ix2 r q) = ix2 r (0 : Fin 1) :=
  funext fun a => Fin.ext (by match a with | ⟨0, _⟩ => rfl | ⟨1, _⟩ => rfl)

/-- The reciprocal standard deviation at `(r, q)`: the reciprocal square root of the floored variance of row `r`. -/
theorem rstd_apply (r : Fin 100000) (q : Fin 128) :
    val_main_v51 (F := Ideal) x0 x1 x2 x3 x4 x5 (ix2 r q)
      = Ideal.rsqrt (rowVar (mixedRow x0 x1 x2 x3 x4 x5 r) + eps) := by
  rw [val_main_v51_apply, rstdBroadcast_index, val_main_v50_apply, val_main_v49_apply, val_main_v48_apply,
    val_main_cst_9_apply, var_apply]
  rfl

/-- The gain broadcast over rows is read at the column. -/
theorem gain_index (r : Fin 100000) (q : Fin 128) : idx_main_v45 (idx_main_v46 (ix2 r q)) = ix1 q :=
  funext fun a => Fin.ext (by match a with | ⟨0, _⟩ => rfl)

/-- The offset broadcast over rows is read at the column. -/
theorem offset_index (r : Fin 100000) (q : Fin 128) : idx_main_v53 (idx_main_v54 (ix2 r q)) = ix1 q :=
  funext fun a => Fin.ext (by match a with | ⟨0, _⟩ => rfl)

/-- The normalised array at `(r, q)`. -/
theorem normalized_apply (r : Fin 100000) (q : Fin 128) :
    val_main_v55 (F := Ideal) x0 x1 x2 x3 x4 x5 x8 x9 (ix2 r q)
      = normalized (mixedRow x0 x1 x2 x3 x4 x5 r) (gain x8) (offset x9) q := by
  rw [val_main_v55_apply, val_main_v52_apply, val_main_v47_apply, val_main_v46_apply, val_main_v45_apply, gain_index,
    val_main_v54_apply, val_main_v53_apply, offset_index, centered_apply, rstd_apply]
  rfl

/-- The positive part of the normalised array at `(r, q)`. -/
theorem positivePart_apply (r : Fin 100000) (q : Fin 128) :
    val_main_v56 (F := Ideal) x0 x1 x2 x3 x4 x5 x8 x9 (ix2 r q)
      = max (normalized (mixedRow x0 x1 x2 x3 x4 x5 r) (gain x8) (offset x9) q) zero := by
  rw [val_main_v56_apply, val_main_call0_v0_apply, val_main_call0_cst_apply, normalized_apply]
  rfl

/-! ## The residual projection -/

/-- The left operand of the second product is read along row `r`. -/
theorem resLeft_index (r : Fin 100000) (q k : Fin 128) : lidx_main_v58 (ix2 r q) k = ix2 r k :=
  funext fun a => Fin.ext (by match a with | ⟨0, _⟩ => rfl | ⟨1, _⟩ => rfl)

/-- The right operand of the second product, the transposed matrix at `(k, q)`, is the stored matrix at `(q, k)`. -/
theorem resRight_index (r : Fin 100000) (q k : Fin 128) : idx_main_v57 (ridx_main_v58 (ix2 r q) k) = ix2 q k :=
  funext fun a => Fin.ext (by match a with | ⟨0, _⟩ => rfl | ⟨1, _⟩ => rfl)

/-- The residual bias broadcast over rows is read at the column. -/
theorem resBias_index (r : Fin 100000) (q : Fin 128) : idx_main_v59 (idx_main_v60 (ix2 r q)) = ix1 q :=
  funext fun a => Fin.ext (by match a with | ⟨0, _⟩ => rfl)

/-- The residual projection's array at `(r, q)`. -/
theorem residual_apply (r : Fin 100000) (q : Fin 128) :
    val_main_v61 (F := Ideal) x2 x6 x7 (ix2 r q) = affine (inRow x2 r) (resW x6) (resB x7) q := by
  rw [val_main_v61_apply, val_main_v58_apply, val_main_v60_apply, val_main_v59_apply, resBias_index]
  have hs : ∀ k : Fin 128,
      x2 (lidx_main_v58 (ix2 r q) k) * val_main_v57 (F := Ideal) x6 (ridx_main_v58 (ix2 r q) k)
        = inRow x2 r k * resW x6 k q := fun k => by
    rw [resLeft_index, val_main_v57_apply, resRight_index]
  exact congrArg₂ (· + ·) (Finset.sum_congr rfl fun k _ => hs k) rfl

/-! ## The row -/

/-- The reference's result at row `r`, column `q`, is the layer's row function of row `r` of the aggregated
    array, of the initial features and of the input features, with the two stored matrices transposed. -/
theorem row_apply (x0 : (⟨S2x1600000, .i32⟩ : BufTy).Contents (Elt Ideal)) (x1 : (⟨S1600000, .f32⟩ : BufTy).Contents (Elt Ideal))
    (x2 x3 : (⟨S100000x128, .f32⟩ : BufTy).Contents (Elt Ideal)) (x4 : (⟨S128x128, .f32⟩ : BufTy).Contents (Elt Ideal))
    (x5 : (⟨S128, .f32⟩ : BufTy).Contents (Elt Ideal)) (x6 : (⟨S128x128, .f32⟩ : BufTy).Contents (Elt Ideal))
    (x7 x8 x9 : (⟨S128, .f32⟩ : BufTy).Contents (Elt Ideal)) (r : Fin 100000) (q : Fin 128) :
    val_main_v62 (F := Ideal) x0 x1 x2 x3 x4 x5 x6 x7 x8 x9 (ix2 r q)
      = Cert.GraphLayer.layerRow (fun k => val_main_v16 (F := Ideal) x0 x1 x2 (ix2 r k)) (fun k => x3 (ix2 r k)) (fun k => x2 (ix2 r k))
          (fun k q' => x4 (ix2 q' k)) (fun q' => x5 (ix1 q')) (fun k q' => x6 (ix2 q' k)) (fun q' => x7 (ix1 q'))
          (fun q' => x8 (ix1 q')) (fun q' => x9 (ix1 q')) q := by
  rw [val_main_v62_apply, positivePart_apply, residual_apply]
  rfl

end Cert.GraphLayer.Ref

end
-- ==== Proof.Bridge.lean ====
/-
  The reference's result is the stage's output array.

  The kernel program's result array ends holding the layer applied row by row to the nine operand arrays the
  fused stage finds. Those are: the aggregated array, which is the reference's aggregated array of the same three
  arguments; two arguments untouched; the two weight matrices transposed; and the four vectors as single rows.
  The reference's result, read at row `r` and column `q`, is the same row function of row `r` of its aggregated
  array, of the two arguments, of the stored matrices read transposed and of the four vectors. Entry by entry the
  nine operands agree, so the two arrays are equal.
-/
import proofs.«148300_j53060025975244_1_alg».proof.Proof.StageValue
import proofs.«148300_j53060025975244_1_alg».proof.Proof.HostArrays
import proofs.«148300_j53060025975244_1_alg».proof.Proof.RefRow

noncomputable section

namespace Cert.GraphLayer.Bridge

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The stage's nine operand arrays by name: the aggregated array, the initial features, the input features, the
    two transposed weights and the four single rows. -/
theorem stageOut_named (c : Dev nD) :
    Stage.stageOut m c = layerArray (V m c main_v16) (V m c main_arg3) (V m c main_arg2) (V m c main_v17) (V m c main_v19)
      (V m c main_v18) (V m c main_v20) (V m c main_v21) (V m c main_v22) := rfl

/-- The reference's result of the kernel program's own arguments is the stage's output array. -/
theorem reference_eq (c : Dev nD) :
    Cert.ReferenceIdeal.Read.val_main_v62 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9))
      = Stage.stageOut m c := by
  rw [stageOut_named]
  funext i
  obtain ⟨r, q, rfl⟩ : ∃ (r : Fin 100000) (q : Fin 128), i = ix2 r q := ⟨i 0, i 1, eq_ix2 i⟩
  rw [Cert.GraphLayer.Ref.row_apply, layerArray_apply]
  exact layerRow_congr
    (fun k => (congrFun (Entry.aggregated m c) (ix2 r k)).symm)
    (fun k => (congrFun (V_main_arg3 m c) (ix2 r k)).symm)
    (fun k => (congrFun (V_main_arg2 m c) (ix2 r k)).symm)
    (fun k j => (Entry.linWeight_apply m c k j).symm)
    (fun j => (Entry.linBias_apply m c j).symm)
    (fun k j => (Entry.resWeight_apply m c k j).symm)
    (fun j => (Entry.resBias_apply m c j).symm)
    (fun j => (Entry.gain_apply m c j).symm)
    (fun j => (Entry.offset_apply m c j).symm)
    rfl

end Cert.GraphLayer.Bridge

end
-- ==== Proof.lean ====
/-
  The kernel program and its reference compute the same array.

  Both programs first form the aggregated neighbour array: the input rows gathered by source node, scaled by the
  edge weights and summed into the destination rows. That part is the same sequence of operations in both, and is
  never opened. The kernel program then runs one fused stage over blocks of 4000 rows; the reference applies the
  same steps to whole arrays. Row by row both are one function (`Cert.GraphLayer.layerRow`): the convex blend of the
  aggregated row with the initial row, a linear map of the blend averaged with the blend, layer normalisation over the
  128 entries, the positive part, and the residual projection of the input row. At the ideal values a change of float
  format is the identity, a matrix product into a zero accumulator and a host contraction are the same sum, and a
  lane sum and a host sum are the same sum; no other law is needed, so the inputs' finiteness is never used.

  The stage's output array is read off the program's run block by block (`Cert.GraphLayer.Stage`), the reference's
  result entry by entry (`Cert.GraphLayer.Ref`), and the operands the stage finds are identified with the arguments
  (`Cert.GraphLayer.Entry`, `Cert.GraphLayer.Bridge`). The idealized kernel program is the kernel program's own text read
  at the ideal values: nothing was rewritten, so there is nothing to preserve.
-/
import proofs.«148300_j53060025975244_1_alg».proof.Defs
import proofs.«148300_j53060025975244_1_alg».proof.Proof.Gen.Kernel
import proofs.«148300_j53060025975244_1_alg».proof.Proof.Gen.Kernel.Skeleton
import proofs.«148300_j53060025975244_1_alg».proof.Proof.Gen.Kernel.Launch
import proofs.«148300_j53060025975244_1_alg».proof.Proof.Gen.Kernel.Points
import proofs.«148300_j53060025975244_1_alg».proof.Proof.Gen.Kernel.Frame
import proofs.«148300_j53060025975244_1_alg».proof.Proof.Gen.KernelIdeal
import proofs.«148300_j53060025975244_1_alg».proof.Proof.Gen.KernelIdeal.Skeleton
import proofs.«148300_j53060025975244_1_alg».proof.Proof.Gen.KernelIdeal.Launch
import proofs.«148300_j53060025975244_1_alg».proof.Proof.Gen.KernelIdeal.Points
import proofs.«148300_j53060025975244_1_alg».proof.Proof.Gen.KernelIdeal.Frame
import proofs.«148300_j53060025975244_1_alg».proof.Proof.Gen.ReferenceIdeal
import proofs.«148300_j53060025975244_1_alg».proof.Proof.Gen.Pre_finite_inputs
import proofs.«148300_j53060025975244_1_alg».proof.Proof.Gen.KernelIdeal.Value
import proofs.«148300_j53060025975244_1_alg».proof.Proof.Gen.ReferenceIdeal.Run
import proofs.«148300_j53060025975244_1_alg».proof.Proof.Gen.ReferenceIdeal.Read
import proofs.«148300_j53060025975244_1_alg».proof.Proof.StageValue
import proofs.«148300_j53060025975244_1_alg».proof.Proof.Bridge
import Idealize.ShloMosaic.Adequacy
import Idealize.ShloMosaic.Init

noncomputable section

namespace Cert.Proof

open Idealize.ShloMosaic Idealize.ShloMosaic.TcCoe Idealize.SL.Sem

/-- The kernel program runs and leaves its arguments as they were. -/
theorem frame_kernel : Cert.frame_Kernel := fun m ρ _ => Cert.Kernel.Gen.frame m ρ

/-- So does the kernel program read at the ideal values. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel program was rewritten when it was read at the ideal values. -/
theorem preserves : Cert.preserves_Kernel_KernelIdeal := trivial

/-- From memories that agree on the arguments both programs end with the layer's output array: the kernel program by
    the stage's run, the reference by its own run read entry by entry. -/
theorem algebraic : Cert.algebraic_KernelIdeal_ReferenceIdeal := by
  intro m ρ m' ρ' _ hagree
  refine ⟨fun c => Cert.GraphLayer.Stage.stageOut m c, Cert.GraphLayer.Stage.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8, g9⟩ := hagree c
  rw [Cert.ReferenceIdeal.Read.val_main_v62_eq, g0, g1, g2, g3, g4, g5, g6, g7, g8, g9]
  exact Cert.GraphLayer.Bridge.reference_eq m c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
